-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x128 .f32) (main_arg2 : IVec S2x600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S5000x128 : Shape := ⟨2, ![5000, 128]⟩
abbrev S1x128 : Shape := ⟨2, ![1, 128]⟩

abbrev nBuf : Space → Nat
  | .hbm => 14
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S_, .f32⟩
  | .hbm, ⟨10, _⟩ => ⟨S50000x128, .f32⟩
  | .hbm, ⟨11, _⟩ => ⟨S600000x1, .i32⟩
  | .hbm, ⟨12, _⟩ => ⟨S50000x128, .f32⟩
  | .hbm, ⟨13, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S5000x128 : S1x128.Broadcasts S5000x128
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S_, .f32⟩
  | .hbm, ⟨10, _⟩ => ⟨S50000x128, .f32⟩
  | .hbm, ⟨11, _⟩ => ⟨S600000x1, .i32⟩
  | .hbm, ⟨12, _⟩ => ⟨S50000x128, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .i1⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.MlpSpec.lean ====
/-
  The node update as mathematics, over the extended reals.

  A node with aggregated message row `a : Fin 128 → EReal` and own feature `x` in column `c` ends at
      x + ( ∑ₖ ssp( ∑ⱼ a j · W₁[j,k] + b₁[k] ) · W₂[k,c] + b₂[c] ),
  where `ssp h = max h 0 + log(1 + exp(-|h|)) - ln2` is the shifted softplus in its overflow-safe form and `ln2` is the
  single-precision value nearest to log 2 (kept as its word: both programs subtract the same word, so it is never evaluated).
  `mlp` is that entry taken at every (node, column) of a 50000 × 128 array.  Nothing here assumes finiteness: every
  identity used later is commutativity-free bookkeeping (the same sums of the same products on both sides).
-/
import Idealize.ShloMosaic.PureOps.Ideal.Laws
import Idealize.ShloMosaic.Lib.ValueIdx

noncomputable section

open scoped BigOperators

namespace Cert.Mlp

open Idealize.ShloMosaic Idealize.ShloMosaic.ValueIdx

/-- The word of the single-precision constant the programs subtract (the float nearest log 2), read as an extended real. -/
def ln2 : EReal := Ideal.ofBits .f32 0x3F317218#32

/-- Shifted softplus, overflow-safe form: `max h 0 + log1p (exp (-|h|)) - ln2`, with `|h| = max h (-h)`. -/
def ssp (h : EReal) : EReal := max h 0 + Ideal.log1p (Ideal.exp (-(max h (-h)))) - ln2

/-- One affine layer's entry in column `c`: the row `a` against column `c` of `W`, plus the bias. -/
def affine (a : Fin 128 → EReal) (W : (⟨2, ![128, 128]⟩ : Shape).Idx → EReal) (b : (⟨1, ![128]⟩ : Shape).Idx → EReal)
    (c : Fin 128) : EReal :=
  ∑ j : Fin 128, a j * W (ix2 j c) + b (ix1 c)

/-- The updated feature in column `c` of a node whose aggregated row is `a` and whose own feature there is `x`. -/
def entry (a : Fin 128 → EReal) (x : EReal) (W₁ : (⟨2, ![128, 128]⟩ : Shape).Idx → EReal) (b₁ : (⟨1, ![128]⟩ : Shape).Idx → EReal)
    (W₂ : (⟨2, ![128, 128]⟩ : Shape).Idx → EReal) (b₂ : (⟨1, ![128]⟩ : Shape).Idx → EReal) (c : Fin 128) : EReal :=
  x + affine (fun k => ssp (affine a W₁ b₁ k)) W₂ b₂ c

/-- The whole result: `entry` at every node `r` and column `c`, from the aggregated messages `agg` and the features `v`. -/
def mlp (agg v : (⟨2, ![50000, 128]⟩ : Shape).Idx → EReal) (W₁ : (⟨2, ![128, 128]⟩ : Shape).Idx → EReal)
    (b₁ : (⟨1, ![128]⟩ : Shape).Idx → EReal) (W₂ : (⟨2, ![128, 128]⟩ : Shape).Idx → EReal) (b₂ : (⟨1, ![128]⟩ : Shape).Idx → EReal) :
    (⟨2, ![50000, 128]⟩ : Shape).Idx → EReal :=
  fun i => entry (fun j => agg (ix2 (i 0 : Fin 50000) j)) (v i) W₁ b₁ W₂ b₂ (i 1 : Fin 128)

/-- `mlp` at a node and a column given by coordinates. -/
theorem mlp_ix2 (agg v : (⟨2, ![50000, 128]⟩ : Shape).Idx → EReal) (W₁ : (⟨2, ![128, 128]⟩ : Shape).Idx → EReal)
    (b₁ : (⟨1, ![128]⟩ : Shape).Idx → EReal) (W₂ : (⟨2, ![128, 128]⟩ : Shape).Idx → EReal) (b₂ : (⟨1, ![128]⟩ : Shape).Idx → EReal)
    (r : Fin 50000) (c : Fin 128) :
    mlp agg v W₁ b₁ W₂ b₂ (ix2 r c) = entry (fun j => agg (ix2 r j)) (v (ix2 r c)) W₁ b₁ W₂ b₂ c := rfl

/-! ## The activation as each program spells it, one element at a time -/

/-- Comparing an extended real with itself for inequality answers "no", ordered or unordered: there is no NaN to say yes. -/
theorem cmp_ne_self (p : CmpFPredicate) (hp : p = .one ∨ p = .une) (d : EReal) : Ideal.cmp p d d = 0#1 := by
  rcases hp with rfl | rfl <;> simp [Ideal.cmp]

/-- The softplus as written with a guard for an undefined difference and an explicit zero `z`:
    `select (d ≠ d) (h + z) (max h z + log1p (exp (-|d|)))` with `d = h - z`, minus `ln2`, is `ssp h` once `z = 0`. -/
theorem ssp_guarded (p : CmpFPredicate) (hp : p = .one ∨ p = .une) (h : EReal) :
    Scalar.select (Ideal.cmp p (h - 0) (h - 0)) (h + 0) (max h 0 + Ideal.log1p (Ideal.exp (-(max (h - 0) (-(h - 0)))))) - ln2
      = ssp h := by
  rw [cmp_ne_self p hp, select_zero, sub_zero]
  rfl

end Cert.Mlp

end
-- ==== Proof.KernelEntry.lean ====
/-
  One entry of what the kernel body stores.

  The body works on a block of 5000 nodes: `x0` their aggregated message rows, `x1` their own features, `x2, x3` and
  `x4, x5` the two layers' weights and biases.  Read at row `p` and column `q` of the block, the stored value is
  `Mlp.entry` of row `p` of `x0`: both matrix products are plain sums over the 128 contracted columns (the
  accumulator they start from is the zero word), the biases are rows repeated down the block, the format changes around the
  products are the identity on extended reals, and the guarded softplus is `Mlp.ssp` (`Mlp.ssp_guarded`).
-/
import proofs.«164928_j87840671137924_1_alg».proof.Proof.Gen.KernelIdeal.Skeleton
import proofs.«164928_j87840671137924_1_alg».proof.Proof.MlpSpec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-! ## The block's matrix product and bias row at (row, column) -/

/-- The left operand's index for output `i` and contraction index `k` keeps the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's index for output `i` and contraction index `k` keeps the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 × 128 by 128 × 128 product into the zero accumulator, at (p, q): the sum over the 128 shared columns. -/
theorem matmul_ix2 {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- A bias vector laid as one row and repeated down the block reads, at (p, q), its entry `q`. -/
theorem bias_ix2 (b : Vec Ideal S128 .f32) (p : Fin 5000) (q : Fin 128) :
    broadcastTo S5000x128 (shapeCast S1x128 b Facts₀.shapeCasts_S128_S1x128) Facts₀.broadcasts_S1x128_S5000x128 (ix2 p q) = b (ix1 q) := by
  rw [broadcastTo_1b_ab_apply, shapeCast_a_1a_apply]

/-! ## The two stages of the body -/

/-- The first layer before its activation: messages times `W₁`, plus `b₁`. -/
def hidden (x0 : Vec Ideal S5000x128 .f32) (x2 : Vec Ideal S128x128 .f32) (x3 : Vec Ideal S128 .f32) : FVec Ideal S5000x128 .f32 :=
  addf (matmul dot_S5000x128_S128x128_S5000x128_1_0_0_1_n_n none
      (truncf .bf16 (shapeCast S5000x128 x0 Facts₀.shapeCasts_S5000x128_S5000x128) Facts₀.bitsLt_bf16_f32)
      (truncf .bf16 x2 Facts₀.bitsLt_bf16_f32) (constant (F := Ideal) S5000x128 .f32 0x00000000#32))
    (broadcastTo S5000x128 (shapeCast S1x128 x3 Facts₀.shapeCasts_S128_S1x128) Facts₀.broadcasts_S1x128_S5000x128)

/-- The shifted softplus as the body spells it, on a whole block. -/
def activation (h : FVec Ideal S5000x128 .f32) : FVec Ideal S5000x128 .f32 :=
  subf (select (cmpf .one (subf h (broadcast S5000x128 (FloatOps.ofBits (F := Ideal) .f32 0x00000000#32)))
        (subf h (broadcast S5000x128 (FloatOps.ofBits (F := Ideal) .f32 0x00000000#32))))
      (addf h (broadcast S5000x128 (FloatOps.ofBits (F := Ideal) .f32 0x00000000#32)))
      (addf (maximumf h (broadcast S5000x128 (FloatOps.ofBits (F := Ideal) .f32 0x00000000#32)))
        (log1p (exp (subf (broadcast S5000x128 (FloatOps.ofBits (F := Ideal) .f32 0x00000000#32))
          (absf (subf h (broadcast S5000x128 (FloatOps.ofBits (F := Ideal) .f32 0x00000000#32)))))))))
    (broadcast S5000x128 (FloatOps.ofBits (F := Ideal) .f32 0x3F317218#32))

/-- The stored value is the features plus the second layer of the activated first layer. -/
theorem pay_eq (x0 x1 : Vec Ideal S5000x128 .f32) (x2 : Vec Ideal S128x128 .f32) (x3 : Vec Ideal S128 .f32)
    (x4 : Vec Ideal S128x128 .f32) (x5 : Vec Ideal S128 .f32) :
    k0_pay1 x0 x1 x2 x3 x4 x5 = addf x1 (addf (matmul dot_S5000x128_S128x128_S5000x128_1_0_0_1_n_n none
        (truncf .bf16 (activation (hidden x0 x2 x3)) Facts₀.bitsLt_bf16_f32) (truncf .bf16 x4 Facts₀.bitsLt_bf16_f32)
        (constant (F := Ideal) S5000x128 .f32 0x00000000#32))
      (broadcastTo S5000x128 (shapeCast S1x128 x5 Facts₀.shapeCasts_S128_S1x128) Facts₀.broadcasts_S1x128_S5000x128)) := rfl

/-- The first layer at (p, k): row `p` of the messages against column `k` of `W₁`, plus `b₁[k]`. -/
theorem hidden_ix2 (x0 : Vec Ideal S5000x128 .f32) (x2 : Vec Ideal S128x128 .f32) (x3 : Vec Ideal S128 .f32) (p : Fin 5000) (k : Fin 128) :
    hidden x0 x2 x3 (ix2 p k) = Cert.Mlp.affine (fun j => x0 (ix2 p j)) x2 x3 k := by
  unfold hidden
  show matmul _ none _ _ _ (ix2 p k) + broadcastTo _ _ _ (ix2 p k) = _
  rw [matmul_ix2, bias_ix2, shapeCast_self]
  rfl

/-- The activation at any entry is `Mlp.ssp` of the entry. -/
theorem activation_apply (h : FVec Ideal S5000x128 .f32) (i : S5000x128.Idx) : activation h i = Cert.Mlp.ssp (h i) := by
  show Scalar.select (Ideal.cmp .one (h i - Ideal.ofBits .f32 0x00000000#32) (h i - Ideal.ofBits .f32 0x00000000#32))
      (h i + Ideal.ofBits .f32 0x00000000#32)
      (max (h i) (Ideal.ofBits .f32 0x00000000#32) + Ideal.log1p (Ideal.exp (Ideal.ofBits .f32 0x00000000#32
        - max (h i - Ideal.ofBits .f32 0x00000000#32) (-(h i - Ideal.ofBits .f32 0x00000000#32)))))
      - Ideal.ofBits .f32 0x3F317218#32 = _
  rw [Ideal.ofBits_zero_f32, zero_sub]
  exact Cert.Mlp.ssp_guarded .one (.inl rfl) (h i)

/-! ## The stored entry -/

/-- THE BODY'S RESULT at row `p`, column `q` of the block. -/
theorem pay_ix2 (x0 x1 : Vec Ideal S5000x128 .f32) (x2 : Vec Ideal S128x128 .f32) (x3 : Vec Ideal S128 .f32)
    (x4 : Vec Ideal S128x128 .f32) (x5 : Vec Ideal S128 .f32) (p : Fin 5000) (q : Fin 128) :
    k0_pay1 x0 x1 x2 x3 x4 x5 (ix2 p q) = Cert.Mlp.entry (fun j => x0 (ix2 p j)) (x1 (ix2 p q)) x2 x3 x4 x5 q := by
  rw [pay_eq]
  show x1 (ix2 p q) + (matmul (F := Ideal) _ none _ _ _ (ix2 p q) + broadcastTo _ _ _ (ix2 p q)) = _
  rw [matmul_ix2, bias_ix2]
  unfold Cert.Mlp.entry
  refine congrArg (fun s => x1 (ix2 p q) + (s + x5 (ix1 q))) (Finset.sum_congr rfl fun k _ => ?_)
  show activation (hidden x0 x2 x3) (ix2 p k) * x4 (ix2 k q) = _
  rw [activation_apply, hidden_ix2]

end Cert.KernelIdeal.Entry

end
-- ==== Proof.KernelArray.lean ====
/-
  From the blocks to the whole array.

  The grid has ten points; point `t` is handed rows `5000·t … 5000·t + 4999` of the aggregated messages and of the
  features, and both weight matrices and both biases whole; it writes rows `5000·t …` of the result.  Since an entry of
  `Mlp.mlp` depends only on its own row of the messages and features, what point `t` writes is exactly the block of
  rows `5000·t …` of `Mlp.mlp` of the whole arrays.  The ten blocks tile the 50000 rows (row `r` lies in block
  `r / 5000`), so after the run the result array IS `Mlp.mlp`.  The aggregated messages are what the host's scatter-add
  left before the launch; they are carried as one unopened array (`aggregate`).
-/
import proofs.«164928_j87840671137924_1_alg».proof.Proof.Gen.KernelIdeal.Value
import proofs.«164928_j87840671137924_1_alg».proof.Proof.KernelEntry
import Idealize.ShloMosaic.Lib.Pipeline.Value
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## A block of rows of `Mlp.mlp` -/

/-- If `x0`, `x1` are rows `5000·n …` of `A`, `X` and the other operands are the weights, the body's result at
    (p, q) is `Mlp.mlp` at row `5000·n + p`, column `q`. -/
theorem block_entry (A X : (⟨2, ![50000, 128]⟩ : Shape).Idx → EReal) (W₁ : (⟨2, ![128, 128]⟩ : Shape).Idx → EReal)
    (b₁ : (⟨1, ![128]⟩ : Shape).Idx → EReal) (W₂ : (⟨2, ![128, 128]⟩ : Shape).Idx → EReal) (b₂ : (⟨1, ![128]⟩ : Shape).Idx → EReal)
    (x0 x1 : Vec Ideal S5000x128 .f32) (x2 : Vec Ideal S128x128 .f32) (x3 : Vec Ideal S128 .f32)
    (x4 : Vec Ideal S128x128 .f32) (x5 : Vec Ideal S128 .f32) (n : Nat) (hn : n < 10)
    (h0 : ∀ (p : Fin 5000) (j : Fin 128), x0 (ix2 p j) = A (ix2 (⟨n * 5000 + p.val, by have := p.isLt; omega⟩ : Fin 50000) j))
    (h1 : ∀ (p : Fin 5000) (j : Fin 128), x1 (ix2 p j) = X (ix2 (⟨n * 5000 + p.val, by have := p.isLt; omega⟩ : Fin 50000) j))
    (h2 : x2 = W₁) (h3 : x3 = b₁) (h4 : x4 = W₂) (h5 : x5 = b₂) (p : Fin 5000) (q : Fin 128) :
    k0_pay1 x0 x1 x2 x3 x4 x5 (ix2 p q)
      = Cert.Mlp.mlp A X W₁ b₁ W₂ b₂ (ix2 (⟨n * 5000 + p.val, by have := p.isLt; omega⟩ : Fin 50000) q) := by
  subst h2 h3 h4 h5
  rw [Entry.pay_ix2, Cert.Mlp.mlp_ix2, h1]
  simp only [h0]

/-! ## What the region finds in its windows -/

theorem hz : (![0, 0] : Fin 2 → Nat) = fun _ => 0 := funext fun a => by fin_cases a <;> rfl
theorem hz1 : (![0] : Fin 1 → Nat) = fun _ => 0 := funext fun a => by fin_cases a <;> rfl

/-- The body's one store covers its buffer, so the buffer ends at the stored value. -/
theorem out_eq (x0 x1 : Vec Ideal S5000x128 .f32) (x2 : Vec Ideal S128x128 .f32) (x3 : Vec Ideal S128 .f32)
    (x4 : Vec Ideal S128x128 .f32) (x5 : Vec Ideal S128 .f32) : out0_6 x0 x1 x2 x3 x4 x5 = k0_pay1 x0 x1 x2 x3 x4 x5 := by
  unfold out0_6
  rw [View.canon_unit_zero hz]
  simp only [View.ld_unit_zero (S := S5000x128) hz, View.ld_unit_zero (S := S128x128) hz, View.ld_unit_zero (S := S128) hz1]

/-- The block index of each window at each of the ten points: the row-blocked windows move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem row_lt (t : Fin cfg0.N) (p : Fin 5000) : t.val * 5000 + p.val < 50000 := by
  have hN : cfg0.N = 10 := N_0
  have := t.isLt; have := p.isLt; omega

/-- The messages window's block at point `t`, read off any contents `f` of its array, is rows `5000·t …` of `f`:
    the block's row `p` sits at row `5000·t + p`, its column `j` at column `j`. -/
theorem read_rows (f : (⟨S50000x128, .f32⟩ : BufTy).Contents (Elt Ideal)) (t : Fin cfg0.N) (p : Fin 5000) (j : Fin 128) :
    ((cfg0.win 0).blk t).view.read (Elt Ideal) f (ix2 p j) = f (ix2 (⟨t.val * 5000 + p.val, row_lt t p⟩ : Fin 50000) j) := by
  obtain ⟨e0, e1, -⟩ := idx_facts t
  show f (((cfg0.win 0).blk t).view.emb (ix2 p j)) = _
  refine congrArg f (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

/-- Point `t`'s block of the aggregated messages is their rows `5000·t …`. -/
theorem read_agg (c : Dev nD) (t : Fin cfg0.N) (p : Fin 5000) (j : Fin 128) :
    iblk m c 0 t (ix2 p j) = V m c main_v4 (ix2 (⟨t.val * 5000 + p.val, row_lt t p⟩ : Fin 50000) j) :=
  read_rows (V m c main_v4) t p j

/-- Point `t`'s block of the features is their rows `5000·t …`. -/
theorem read_feat (c : Dev nD) (t : Fin cfg0.N) (p : Fin 5000) (j : Fin 128) :
    iblk m c 1 t (ix2 p j) = V m c main_arg0 (ix2 (⟨t.val * 5000 + p.val, row_lt t p⟩ : Fin 50000) j) := by
  obtain ⟨-, -, e0, e1, -⟩ := idx_facts t
  show V m c main_arg0 (((cfg0.win 1).blk t).view.emb (ix2 p j)) = _
  refine congrArg (V m c main_arg0) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * j.val = j.val; rw [e1]; omega

/-- Each weight window's block, at every point, is its whole array. -/
theorem read_w1 (c : Dev nD) (t : Fin cfg0.N) : iblk m c 2 t = V m c main_arg3 := by
  obtain ⟨-, -, -, -, e0, e1, -⟩ := idx_facts t
  funext y
  show V m c main_arg3 (((cfg0.win 2).blk t).view.emb y) = _
  refine congrArg (V m c main_arg3) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem read_b1 (c : Dev nD) (t : Fin cfg0.N) : iblk m c 3 t = V m c main_arg4 := by
  obtain ⟨-, -, -, -, -, -, e0, -⟩ := idx_facts t
  funext y
  show V m c main_arg4 (((cfg0.win 3).blk t).view.emb y) = _
  refine congrArg (V m c main_arg4) (funext fun a => Fin.ext ?_)
  match a with
  | ⟨0, _⟩ => show win0_3.index t (0 : Fin 1) * 128 + 1 * (y 0).val = (y 0).val; rw [e0]; omega
theorem read_w2 (c : Dev nD) (t : Fin cfg0.N) : iblk m c 4 t = V m c main_arg5 := by
  obtain ⟨-, -, -, -, -, -, -, e0, e1, -⟩ := idx_facts t
  funext y
  show V m c main_arg5 (((cfg0.win 4).blk t).view.emb y) = _
  refine congrArg (V m c main_arg5) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem read_b2 (c : Dev nD) (t : Fin cfg0.N) : iblk m c 5 t = V m c main_arg6 := by
  obtain ⟨-, -, -, -, -, -, -, -, -, e0, -⟩ := idx_facts t
  funext y
  show V m c main_arg6 (((cfg0.win 5).blk t).view.emb y) = _
  refine congrArg (V m c main_arg6) (funext fun a => Fin.ext ?_)
  match a with
  | ⟨0, _⟩ => show win0_5.index t (0 : Fin 1) * 128 + 1 * (y 0).val = (y 0).val; rw [e0]; omega

/-! ## What each point writes back, and the array after the run -/

/-- The result as the region's arrays give it. -/
abbrev resultV (c : Dev nD) : S50000x128.Idx → EReal :=
  Cert.Mlp.mlp (V m c main_v4) (V m c main_arg0) (V m c main_arg3) (V m c main_arg4) (V m c main_arg5) (V m c main_arg6)

/-- WHAT POINT `t` WRITES BACK is block `t` of `Mlp.mlp` of the whole arrays. -/
theorem flushed_eq (c : Dev nD) (t : Fin cfg0.N) :
    (dats m 0 c).flushed 6 t = ((cfg0.win 6).blk t).view.read (Elt Ideal) (resultV m c) := by
  rw [Value.flushed6, out_eq]
  obtain ⟨-, -, -, -, -, -, -, -, -, -, e0, e1⟩ := idx_facts t
  have hN : cfg0.N = 10 := N_0
  refine funext fun (y : S5000x128.Idx) => ?_
  obtain ⟨p, q, rfl⟩ : ∃ (p : Fin 5000) (q : Fin 128), y = ix2 p q := ⟨y 0, y 1, eq_ix2 y⟩
  have hemb : ((cfg0.win 6).blk t).view.emb (ix2 p q) = ix2 (⟨t.val * 5000 + p.val, row_lt t p⟩ : Fin 50000) q :=
    funext fun a => Fin.ext (by
      match a with
      | ⟨0, _⟩ => show win0_6.index t (0 : Fin 2) * 5000 + 1 * p.val = t.val * 5000 + p.val; rw [e0]; omega
      | ⟨1, _⟩ => show win0_6.index t (1 : Fin 2) * 128 + 1 * q.val = q.val; rw [e1]; omega)
  show k0_pay1 (iblk m c 0 t) (iblk m c 1 t) (iblk m c 2 t) (iblk m c 3 t) (iblk m c 4 t) (iblk m c 5 t) (ix2 p q)
    = resultV m c (((cfg0.win 6).blk t).view.emb (ix2 p q))
  rw [hemb]
  exact block_entry (V m c main_v4) (V m c main_arg0) (V m c main_arg3) (V m c main_arg4) (V m c main_arg5) (V m c main_arg6)
    (iblk m c 0 t) (iblk m c 1 t) (iblk m c 2 t) (iblk m c 3 t) (iblk m c 4 t) (iblk m c 5 t) t.val (by have := t.isLt; omega)
    (read_agg m c t) (read_feat m c t) (read_w1 m c t) (read_b1 m c t) (read_w2 m c t) (read_b2 m c t) p q

/-- An index of the result is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v5).slice (win0_6.rect t)).set ↔ _
  rw [View.set_slice_whole, Rect.mem_set_unit]
  exact Iff.rfl

/-- Row `r` of the result lies in the block of point `r / 5000`: the ten blocks cover the array. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, e0, e1⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e1]; omega

/-- THE RESULT ARRAY after the run is `Mlp.mlp` of the arrays the region found. -/
theorem finalV (c : Dev nD) : (dats m 0 c).arrAt 6 cfg0.N = resultV m c :=
  (dats m 0 c).arrAt_eq_of_cover 6 (resultV m c) (fun t _ => flushed_eq m c t) cover

/-! ## The aggregated messages, and the run -/

/-- The host's scatter-add of the edge messages into a zero array at the target nodes (row 1 of the edge index), as one term. -/
def aggregate (e : (⟨S600000x128, .f32⟩ : BufTy).Contents (Elt Ideal)) (ei : (⟨S2x600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] Facts₀.bcast_S_S50000x128 (constant (F := Ideal) S_ .f32 0x00000000#32))
    (broadcastInDim S600000x1 ![0] Facts₀.bcast_S600000_S600000x1_0
      (shapeCast S600000 (extractStridedSlice S1x600000 ![1, 0] ei Facts₀.slices_S2x600000_S1x600000_1_0) Facts₀.shapeCasts_S1x600000_S600000))
    e

/-- The messages window's array, when the region is entered, holds `aggregate` of the launch contents. -/
theorem V_agg (c : Dev nD) : (V m c main_v4 : S50000x128.Idx → EReal)
    = aggregate (m ((c : Thread nD τ).loc main_arg1)) (m ((c : Thread nD τ).loc main_arg2)) := by
  dsimp only [Gen.V, Gen.hostOps0]
  after_results
  rfl

/-- The result as the launch contents give it. -/
abbrev result (c : Dev nD) : S50000x128.Idx → EReal :=
  Cert.Mlp.mlp (aggregate (m ((c : Thread nD τ).loc main_arg1)) (m ((c : Thread nD τ).loc main_arg2)))
    (m ((c : Thread nD τ).loc main_arg0)) (m ((c : Thread nD τ).loc main_arg3)) (m ((c : Thread nD τ).loc main_arg4))
    (m ((c : Thread nD τ).loc main_arg5)) (m ((c : Thread nD τ).loc main_arg6))

theorem final (c : Dev nD) : (dats m 0 c).arrAt 6 cfg0.N = result m c := by
  rw [finalV]
  unfold resultV result
  rw [V_agg, V_main_arg0, V_main_arg3, V_main_arg4, V_main_arg5, V_main_arg6]

/-- THE KERNEL'S RUN, READ: the result array at `Mlp.mlp` of the launch contents, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.ReferenceArray.lean ====
/-
  The reference's result, entry by entry.

  Read one operation at a time, the reference computes at node `r`, column `c`: the node's own feature plus the second
  affine layer of the activated first layer, the first layer taken on row `r` of the aggregated messages (the host's
  scatter-add, kept as one unopened array).  Its matrix products are sums over the 128 shared columns, its biases rows
  repeated over the nodes, and its softplus — written with an inequality guard and host operations — is `Mlp.ssp`.
  So the whole result is `Mlp.mlp` of the aggregated messages.
-/
import proofs.«164928_j87840671137924_1_alg».proof.Proof.Gen.ReferenceIdeal.Read
import proofs.«164928_j87840671137924_1_alg».proof.Proof.MlpSpec

noncomputable section

open scoped BigOperators

namespace Cert.ReferenceIdeal.Whole

open Cert.ReferenceIdeal Cert.ReferenceIdeal.Read Idealize.ShloMosaic Idealize.ShloMosaic.ValueIdx

variable (x0 : (⟨S50000x128, .f32⟩ : BufTy).Contents (Elt Ideal)) (x1 : (⟨S600000x128, .f32⟩ : BufTy).Contents (Elt Ideal))
  (x2 : (⟨S2x600000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-! ## The operand indices of the two products and the two bias rows, by coordinates -/

theorem lidx5 (r : Fin 50000) (c k : Fin 128) : lidx_main_v5 (ix2 r c) k = ix2 r k :=
  funext fun a => Fin.ext (by match a with | ⟨0, _⟩ => rfl | ⟨1, _⟩ => rfl)
theorem ridx5 (r : Fin 50000) (c k : Fin 128) : ridx_main_v5 (ix2 r c) k = ix2 k c :=
  funext fun a => Fin.ext (by match a with | ⟨0, _⟩ => rfl | ⟨1, _⟩ => rfl)
theorem lidx12 (r : Fin 50000) (c k : Fin 128) : lidx_main_v12 (ix2 r c) k = ix2 r k :=
  funext fun a => Fin.ext (by match a with | ⟨0, _⟩ => rfl | ⟨1, _⟩ => rfl)
theorem ridx12 (r : Fin 50000) (c k : Fin 128) : ridx_main_v12 (ix2 r c) k = ix2 k c :=
  funext fun a => Fin.ext (by match a with | ⟨0, _⟩ => rfl | ⟨1, _⟩ => rfl)
theorem bidx7 (r : Fin 50000) (c : Fin 128) : idx_main_v6 (idx_main_v7 (ix2 r c)) = ix1 c :=
  funext fun a => Fin.ext (by match a with | ⟨0, _⟩ => rfl)
theorem bidx14 (r : Fin 50000) (c : Fin 128) : idx_main_v13 (idx_main_v14 (ix2 r c)) = ix1 c :=
  funext fun a => Fin.ext (by match a with | ⟨0, _⟩ => rfl)

/-! ## The stages -/

/-- The first layer before its activation, at node `r` and hidden column `k`. -/
theorem hidden_ix2 (r : Fin 50000) (k : Fin 128) :
    val_main_v8 (F := Ideal) x1 x2 x3 x4 (ix2 r k)
      = Cert.Mlp.affine (fun j => val_main_v4 (F := Ideal) x1 x2 (ix2 r j)) x3 x4 k := by
  rw [val_main_v8_apply, val_main_v5_apply, val_main_v7_apply, val_main_v6_apply, bidx7]
  simp only [lidx5, ridx5]
  rfl

/-- The activation, at any entry, is `Mlp.ssp` of the first layer's entry. -/
theorem activation_apply (i : S50000x128.Idx) :
    val_main_v11 (F := Ideal) x1 x2 x3 x4 i = Cert.Mlp.ssp (val_main_v8 (F := Ideal) x1 x2 x3 x4 i) := by
  rw [val_main_v11_apply, val_main_v9_apply, val_main_call0_v4_apply, val_main_call0_v6_apply, val_main_call0_v11_apply,
    val_main_call0_v1_apply, val_main_call0_v10_apply, val_main_call0_v9_apply, val_main_call0_v8_apply, val_main_call0_v7_apply,
    val_main_call0_v3_apply, val_main_v10_apply, val_main_cst_0_apply, val_main_call0_v0_apply, val_main_call0_v2_apply,
    val_main_call0_v5_apply]
  repeat rw [val_main_call0_cst_apply]
  generalize val_main_v8 (F := Ideal) x1 x2 x3 x4 i = h
  simp only [Ideal.subf_def, Ideal.addf_def, Ideal.maximumf_def, Ideal.hostAbsf_def, Ideal.hostNegf_def, Ideal.negf_def,
    Ideal.absf_def, Ideal.cmpf_def, Ideal.hostUnary_exp_def, Ideal.hostUnary_log1p_def, Ideal.ofBits_def, Ideal.ofBits_zero_f32]
  exact Cert.Mlp.ssp_guarded .une (.inr rfl) h

/-! ## The result -/

/-- THE REFERENCE'S RESULT is `Mlp.mlp` of the aggregated messages, the features and the weights. -/
theorem result_eq :
    val_main_v16 (F := Ideal) x0 x1 x2 x3 x4 x5 x6 = Cert.Mlp.mlp (val_main_v4 (F := Ideal) x1 x2) x0 x3 x4 x5 x6 := by
  funext i
  obtain ⟨r, c, rfl⟩ : ∃ (r : Fin 50000) (c : Fin 128), i = ix2 r c := ⟨i 0, i 1, eq_ix2 i⟩
  rw [Cert.Mlp.mlp_ix2, val_main_v16_apply, val_main_v15_apply, val_main_v12_apply, val_main_v14_apply, val_main_v13_apply, bidx14]
  simp only [lidx12, ridx12]
  unfold Cert.Mlp.entry
  refine congrArg (fun s => x0 (ix2 r c) + (s + x6 (ix1 c))) (Finset.sum_congr rfl fun k _ => ?_)
  rw [activation_apply, hidden_ix2]

end Cert.ReferenceIdeal.Whole

end
-- ==== Proof.lean ====
/-
  A graph network's node update: each node adds to its own feature vector a two-layer perceptron of the sum of the
  messages on its incoming edges,
      out[r, c] = v[r, c] + ( ∑ₖ ssp( ∑ⱼ agg[r, j] · W₁[j, k] + b₁[k] ) · W₂[k, c] + b₂[c] ),   agg = scatter-add of e by target node,
  with `ssp` the shifted softplus (Proof/MlpSpec.lean).  Both programs aggregate the messages by the same host
  scatter-add, which is therefore carried as one unopened array.  The kernel then runs the perceptron on ten blocks of 5000
  nodes, with its products' operands narrowed to half width first; the reference runs it on all 50000 nodes at once.  Over
  the extended reals narrowing is the identity, a product into a zero accumulator is the plain sum, and an entry of the
  result depends only on its own node's row, so block `t` of the kernel's result is rows `5000·t …` of the reference's
  (Proof/KernelEntry.lean, Proof/KernelArray.lean, Proof/ReferenceArray.lean).  The two softplus spellings differ in an
  inequality guard that never fires here and in `0 - |d|` against `-|d|` (`Mlp.ssp_guarded`).  No step needs the inputs finite.
-/
import proofs.«164928_j87840671137924_1_alg».proof.Defs
import proofs.«164928_j87840671137924_1_alg».proof.Proof.Gen.Kernel
import proofs.«164928_j87840671137924_1_alg».proof.Proof.Gen.Kernel.Skeleton
import proofs.«164928_j87840671137924_1_alg».proof.Proof.Gen.Kernel.Launch
import proofs.«164928_j87840671137924_1_alg».proof.Proof.Gen.Kernel.Points
import proofs.«164928_j87840671137924_1_alg».proof.Proof.Gen.Kernel.Frame
import proofs.«164928_j87840671137924_1_alg».proof.Proof.Gen.KernelIdeal
import proofs.«164928_j87840671137924_1_alg».proof.Proof.Gen.KernelIdeal.Skeleton
import proofs.«164928_j87840671137924_1_alg».proof.Proof.Gen.KernelIdeal.Launch
import proofs.«164928_j87840671137924_1_alg».proof.Proof.Gen.KernelIdeal.Points
import proofs.«164928_j87840671137924_1_alg».proof.Proof.Gen.KernelIdeal.Frame
import proofs.«164928_j87840671137924_1_alg».proof.Proof.Gen.ReferenceIdeal
import proofs.«164928_j87840671137924_1_alg».proof.Proof.Gen.Pre_finite_inputs
import proofs.«164928_j87840671137924_1_alg».proof.Proof.Gen.KernelIdeal.Value
import proofs.«164928_j87840671137924_1_alg».proof.Proof.Gen.ReferenceIdeal.Run
import proofs.«164928_j87840671137924_1_alg».proof.Proof.Gen.ReferenceIdeal.Read
import proofs.«164928_j87840671137924_1_alg».proof.Proof.KernelArray
import proofs.«164928_j87840671137924_1_alg».proof.Proof.ReferenceArray
import Idealize.ShloMosaic.Adequacy
import Idealize.ShloMosaic.Init

noncomputable section

namespace Cert.Proof

open Idealize.ShloMosaic Idealize.ShloMosaic.TcCoe Idealize.SL.Sem

/-- Both programs aggregate the edge messages with the same host operations on the same arguments: the reference's
    scatter stage is the kernel's term, operation for operation. -/
theorem aggregate_eq (e : (⟨Cert.ReferenceIdeal.S600000x128, .f32⟩ : BufTy).Contents (Elt Ideal))
    (ei : (⟨Cert.ReferenceIdeal.S2x600000, .i32⟩ : BufTy).Contents (Elt Ideal)) :
    Cert.ReferenceIdeal.Read.val_main_v4 (F := Ideal) e ei = Cert.KernelIdeal.Whole.aggregate e ei := rfl

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at `Mlp.mlp` of the aggregated messages (its ten blocks
    tile the nodes) and so does the reference's, from arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v16_eq, Cert.ReferenceIdeal.Whole.result_eq, aggregate_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
